-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x32 : Shape := ⟨2, ![4194304, 32]⟩
abbrev S32 : Shape := ⟨1, ![32]⟩
abbrev S_ : Shape := ⟨0, ![]⟩

class Facts : Prop where
  bcast_S_S4194304x32 : S_.BroadcastsInDim S4194304x32 (![] : Fin 0 → Fin S4194304x32.rank)
  reducesTo_S4194304x32_S_d0_1 : S4194304x32.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S4194304x32 .f32) (main_arg1 : FVec F S4194304x32 .f32) (main_arg2 : FVec F S32 .f32) : IVec S_ 1 :=
  let main_v0 : FVec F S4194304x32 .f32 := Host.absf main_arg0
  let main_cst : FVec F S_ .f32 := constant S_ .f32 0x7F800000#32
  let main_v1 : FVec F S4194304x32 .f32 := broadcastInDim S4194304x32 ![] bcast_S_S4194304x32 main_cst
  let main_v2 : IVec S4194304x32 1 := cmpf .olt main_v0 main_v1
  let main_c : IVec S_ 1 := constantI S_ 1 1#1
  let main_v3 : IVec S_ 1 := (fun x v => Host.reduce IntOp.andi x v reducesTo_S4194304x32_S_d0_1 h_S_) main_v2 main_c
  let main_v4 : FVec F S4194304x32 .f32 := Host.absf main_arg1
  let main_cst_0 : FVec F S_ .f32 := constant S_ .f32 0x7F800000#32
  let main_v5 : FVec F S4194304x32 .f32 := broadcastInDim S4194304x32 ![] bcast_S_S4194304x32 main_cst_0
  let main_v6 : IVec S4194304x32 1 := cmpf .olt main_v4 main_v5
  let main_c_1 : IVec S_ 1 := constantI S_ 1 1#1
  let main_v7 : IVec S_ 1 := (fun x v => Host.reduce IntOp.andi x v reducesTo_S4194304x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S4194304x32 : Shape := ⟨2, ![4194304, 32]⟩
abbrev S32 : Shape := ⟨1, ![32]⟩
abbrev S1x32 : Shape := ⟨2, ![1, 32]⟩
abbrev S1x1 : Shape := ⟨2, ![1, 1]⟩
abbrev S8192x32 : Shape := ⟨2, ![8192, 32]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S32, .f32⟩
  | .hbm, ⟨3, _⟩ => ⟨S1x32, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8192x32, .f32⟩
  | .local _ .vmem, ⟨1, _⟩ => ⟨S8192x32, .f32⟩
  | .local _ .vmem, ⟨2, _⟩ => ⟨S8192x32, .f32⟩
  | .local _ .vmem, ⟨3, _⟩ => ⟨S8192x32, .f32⟩
  | .local _ .vmem, ⟨4, _⟩ => ⟨S1x32, .f32⟩
  | .local _ .vmem, ⟨5, _⟩ => ⟨S1x1, .f32⟩
  | _, _ => ⟨S4194304x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S32_S1x32 : S32.ShapeCasts S1x32
  inb_S1x1_S1x1_0_0 : ∀ a, (![0, 0] : Fin 2 → Nat) a + S1x1.size a ≤ S1x1.size a
  h_S1x1 : 0 < S1x1.numel
  inb_S8192x32_S8192x32_0_0 : ∀ a, (![0, 0] : Fin 2 → Nat) a + S8192x32.size a ≤ S8192x32.size a
  h_S8192x32 : 0 < S8192x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  reduces_S8192x32_S8192 : S8192x32.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S4194304x32.size a
  hwx0_0 : ∀ i : grid0.Coords, EltTy.bits .f32 = 32 ∨ (Rect.block (s := S4194304x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S4194304x32.size a
  hwx0_1 : ∀ i : grid0.Coords, EltTy.bits .f32 = 32 ∨ (Rect.block (s := S4194304x32) S8192x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x32 : Shape := ⟨2, ![4194304, 32]⟩
abbrev S32 : Shape := ⟨1, ![32]⟩
abbrev S_ : Shape := ⟨0, ![]⟩
abbrev S1x32 : Shape := ⟨2, ![1, 32]⟩

abbrev nBuf : Space → Nat
  | .hbm => 16
  | .vmem => 0
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S32, .f32⟩
  | .hbm, ⟨3, _⟩ => ⟨S4194304x32, .f32⟩
  | .hbm, ⟨4, _⟩ => ⟨S_, .f32⟩
  | .hbm, ⟨5, _⟩ => ⟨S4194304x32, .f32⟩
  | .hbm, ⟨6, _⟩ => ⟨S4194304x32, .i1⟩
  | .hbm, ⟨7, _⟩ => ⟨S1x32, .f32⟩
  | .hbm, ⟨8, _⟩ => ⟨S1x32, .f32⟩
  | .hbm, ⟨9, _⟩ => ⟨S4194304x32, .f32⟩
  | .hbm, ⟨10, _⟩ => ⟨S4194304x32, .f32⟩
  | .hbm, ⟨11, _⟩ => ⟨S4194304x32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S4194304x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4194304x32 : S_.BroadcastsInDim S4194304x32 (![] : Fin 0 → Fin S4194304x32.rank)
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  reducesTo_S4194304x32_S_d0_1 : S4194304x32.ReducesTo [0, 1] S_
  h_S_ : 0 < S_.numel

variable [Facts₀]

class Facts : Prop extends Facts₀ where

variable [Facts]
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.LossSum.lean ====
/-
  The asymmetric L1 loss of one entry, and the two facts about sums that join a blockwise accumulation to one
  sum over the whole array.

  For a computed value `a`, a target `b` and a penalty `p` the loss is `a - b` when the difference is not
  negative and `(-p) * (a - b)` when it is.  The total over an array of 4194304 rows by 32 columns can be taken
  all at once, or as 512 consecutive blocks of 8192 rows, each block summed row by row and the block sums
  added one after the other to a running total.  Over the extended reals addition is commutative and
  associative with no side condition, so both orders give the same value whatever the entries are: nothing
  here needs the entries to be finite.
-/
import Idealize.ShloMosaic.PureOps.Ideal.Laws
import Idealize.ShloMosaic.Lib.ValueIdx
import proofs.«174811_j89309549953237_2_alg».proof.Proof.LibBlockRuns

noncomputable section

namespace Cert.Loss

open Idealize.ShloMosaic Idealize.ShloMosaic.ValueIdx

/-- One entry's loss: the difference itself where it is not negative, the difference times the negated
    penalty where it is. -/
def lossAt (a b p : Ideal .f32) : Ideal .f32 :=
  Scalar.select (Ideal.cmp .olt (a - b) (Ideal.ofBits .f32 0x00000000#32)) (-p * (a - b)) (a - b)

/-- Subtracting a penalty from zero negates it. -/
theorem zero_sub_penalty (p : Ideal .f32) : Ideal.ofBits .f32 0x00000000#32 - p = -p := by
  rw [Ideal.ofBits_zero_f32, sub_eq_add_neg, zero_add]

/-- Row `r` of block `t`, as a row of the whole array: row `8192 t + r`. -/
abbrev blockRow (t : Fin 512) (r : Fin 8192) : Fin 4194304 :=
  Cert.Lib.BlockRuns.runIdx 512 8192 4194304 rfl t r

theorem blockRow_val (t : Fin 512) (r : Fin 8192) : (blockRow t r).val = t.val * 8192 + r.val := rfl

/-- The sum over every entry of the array is the sum over the blocks of the sums over each block's rows of the
    sums over each row's columns. -/
theorem sum_by_blocks {M : Type*} [AddCommMonoid M] (f : (⟨2, ![4194304, 32]⟩ : Shape).Idx → M) :
    ∑ j, f j = ∑ t : Fin 512, ∑ r : Fin 8192, ∑ c : Fin 32, f (ix2 (blockRow t r) c) := by
  rw [sum_idx2, Cert.Lib.BlockRuns.sum_runs 512 8192 4194304 rfl]

/-- A running total that starts at `z` plus the first term and adds one more term at each step holds, after
    step `n`, `z` plus the sum of the terms up to `n`. -/
theorem running_total {M : Type*} [AddCommMonoid M] (N : ℕ) (z : M) (P : ℕ → M) (a : (n : ℕ) → n < N → M)
    (h0 : ∀ h : 0 < N, a 0 h = z + P 0)
    (hs : ∀ (n : ℕ) (h : n + 1 < N), a (n + 1) h = a n (Nat.lt_of_succ_lt h) + P (n + 1)) :
    ∀ (n : ℕ) (h : n < N), a n h = z + ∑ k ∈ Finset.range (n + 1), P k
  | 0, h => by rw [h0 h, Finset.sum_range_one]
  | n + 1, h => by
    rw [hs n h, running_total N z P a h0 hs n (Nat.lt_of_succ_lt h), Finset.sum_range_succ _ (n + 1), add_assoc]

/-- The total loss of the arrays: the zero the sums start from plus every entry's loss, entry `(i, j)` taking the
    penalty of its column `j`. -/
def total (x0 x1 : (⟨2, ![4194304, 32]⟩ : Shape).Idx → Ideal .f32) (x2 : (⟨1, ![32]⟩ : Shape).Idx → Ideal .f32) :
    Ideal .f32 :=
  Ideal.ofBits .f32 0x00000000#32 + ∑ j : (⟨2, ![4194304, 32]⟩ : Shape).Idx, lossAt (x0 j) (x1 j) (x2 (ix1 (j 1)))

/-- The mean loss per row: the total divided by the number of rows, 4194304 (the word `0x4A800000`). -/
def mean (x0 x1 : (⟨2, ![4194304, 32]⟩ : Shape).Idx → Ideal .f32) (x2 : (⟨1, ![32]⟩ : Shape).Idx → Ideal .f32) :
    (⟨0, ![]⟩ : Shape).Idx → Ideal .f32 :=
  fun _ => Ideal.div (total x0 x1 x2) (Ideal.ofBits .f32 0x4A800000#32)

/-- The mean, unfolded once: a function that is the quotient at its one index. -/
theorem mean_eq (x0 x1 : (⟨2, ![4194304, 32]⟩ : Shape).Idx → Ideal .f32) (x2 : (⟨1, ![32]⟩ : Shape).Idx → Ideal .f32) :
    mean x0 x1 x2 = fun _ => Ideal.div (total x0 x1 x2) (Ideal.ofBits .f32 0x4A800000#32) := rfl

/-- The sum of the losses of block `t`: its 8192 rows, row by row, each row's 32 columns. -/
def blockSum (x0 x1 : (⟨2, ![4194304, 32]⟩ : Shape).Idx → Ideal .f32) (x2 : (⟨1, ![32]⟩ : Shape).Idx → Ideal .f32)
    (t : Fin 512) : Ideal .f32 :=
  ∑ r : Fin 8192, ∑ c : Fin 32, lossAt (x0 (ix2 (blockRow t r) c)) (x1 (ix2 (blockRow t r) c)) (x2 (ix1 c))

/-- The total is the zero plus the 512 block sums. -/
theorem total_eq_blocks (x0 x1 : (⟨2, ![4194304, 32]⟩ : Shape).Idx → Ideal .f32) (x2 : (⟨1, ![32]⟩ : Shape).Idx → Ideal .f32) :
    total x0 x1 x2 = Ideal.ofBits .f32 0x00000000#32 + ∑ t : Fin 512, blockSum x0 x1 x2 t := by
  unfold total blockSum
  rw [sum_by_blocks]

/-- The block sums taken over the naturals below 512 (zero from 512 on), the form a count of grid points uses. -/
def blockSumAt (x0 x1 : (⟨2, ![4194304, 32]⟩ : Shape).Idx → Ideal .f32) (x2 : (⟨1, ![32]⟩ : Shape).Idx → Ideal .f32)
    (k : ℕ) : Ideal .f32 :=
  if h : k < 512 then blockSum x0 x1 x2 ⟨k, h⟩ else 0

theorem blockSumAt_of_lt (x0 x1 : (⟨2, ![4194304, 32]⟩ : Shape).Idx → Ideal .f32) (x2 : (⟨1, ![32]⟩ : Shape).Idx → Ideal .f32)
    (k : ℕ) (h : k < 512) : blockSumAt x0 x1 x2 k = blockSum x0 x1 x2 ⟨k, h⟩ := dif_pos h

/-- After the last of the 512 points the running total is the total. -/
theorem total_eq_range (x0 x1 : (⟨2, ![4194304, 32]⟩ : Shape).Idx → Ideal .f32) (x2 : (⟨1, ![32]⟩ : Shape).Idx → Ideal .f32) :
    Ideal.ofBits .f32 0x00000000#32 + ∑ k ∈ Finset.range (511 + 1), blockSumAt x0 x1 x2 k = total x0 x1 x2 := by
  rw [total_eq_blocks, Finset.sum_range]
  exact congrArg _ (Finset.sum_congr rfl fun t _ => blockSumAt_of_lt x0 x1 x2 t.val t.isLt)

end Cert.Loss

end
-- ==== Proof.RefValue.lean ====
/-
  The reference computes the mean loss.

  Its program subtracts the two arrays, compares the difference with zero, negates the penalty row and repeats
  it over the rows, multiplies, selects, sums every entry from zero and divides by the number of rows.  Read
  entry by entry at the extended reals that is the zero plus the sum of every entry's loss, divided by 4194304:
  the function `Cert.Loss.mean` of the three argument arrays.
-/
import proofs.«174811_j89309549953237_2_alg».proof.Proof.Gen.ReferenceIdeal.Read
import proofs.«174811_j89309549953237_2_alg».proof.Proof.LossSum

noncomputable section

namespace Cert.ReferenceIdeal.RefValue

open Cert.ReferenceIdeal Cert.ReferenceIdeal.Read Idealize.ShloMosaic Idealize.ShloMosaic.ValueIdx

/-- The penalty an entry is multiplied by is its column's: the two repetitions read column `j 1` of the row. -/
theorem penalty_idx (j : S4194304x32.Idx) : idx_main_v3 (idx_main_v5 j) = ix1 (j 1) :=
  funext fun a => match a with
    | ⟨0, _⟩ => rfl

/-- The selected value at an entry is that entry's loss. -/
theorem loss_entry (x0 x1 : S4194304x32.Idx → Ideal .f32) (x2 : S32.Idx → Ideal .f32) (j : S4194304x32.Idx) :
    val_main_v7 (F := Ideal) x0 x1 x2 j = Cert.Loss.lossAt (x0 j) (x1 j) (x2 (ix1 (j 1))) := by
  rw [val_main_v7_apply, val_main_v2_apply, val_main_v6_apply, val_main_v0_apply, val_main_v1_apply,
    val_main_cst_apply, val_main_v5_apply, val_main_v4_apply, val_main_v3_apply, penalty_idx]
  rfl

/-- The reference's result is the mean loss of its arguments. -/
theorem result_eq (x0 x1 : S4194304x32.Idx → Ideal .f32) (x2 : S32.Idx → Ideal .f32) :
    val_main_v9 (F := Ideal) x0 x1 x2 = Cert.Loss.mean x0 x1 x2 := by
  funext i
  rw [val_main_v9_apply, val_main_v8_apply, val_main_cst_0_apply, val_main_cst_1_apply]
  simp only [loss_entry]
  rfl

end Cert.ReferenceIdeal.RefValue

end
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.BlockValue.lean ====
/-
  What one grid point adds to the running total.

  At a grid point the kernel body holds a block of 8192 rows of each of the two arrays and the one row of
  penalties.  It forms every entry's loss, sums each row's 32 columns, sums the 8192 row sums, and adds that
  block sum to what the output's one cell held before.  At the first point the cell is first set to zero, so
  the point leaves zero plus its block sum; at every later point it leaves the previous contents plus its
  block sum.  Both are the same store, `k0_pay2`, applied to what the cell held.
-/
import proofs.«174811_j89309549953237_2_alg».proof.Proof.Gen.KernelIdeal.Frame
import proofs.«174811_j89309549953237_2_alg».proof.Proof.LossSum
import proofs.«174811_j89309549953237_2_alg».proof.Proof.LibReduceLayout
import proofs.«174811_j89309549953237_2_alg».proof.Proof.LibColumnLayout
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.BlockValue

open Cert.KernelIdeal Cert.KernelIdeal.Gen

variable {F : FTy → Type} [FloatOps F]

theorem hz : (![0, 0] : Fin 2 → Nat) = fun _ => 0 := funext fun a => by fin_cases a <;> rfl

/-- A later point (case B) leaves the accumulating store applied to what the cell held. -/
theorem out_B (c : Dev nD) (i : grid0.Coords) (a1 : Memref sig .tc .vmem S8192x32 .f32) (h1 : a1.IsWhole)
    (a2 : Memref sig .tc .vmem S8192x32 .f32) (h2 : a2.IsWhole) (a3 : Memref sig .tc .vmem S1x32 .f32) (h3 : a3.IsWhole)
    (a4 : Memref sig .tc .vmem S1x1 .f32) (h4 : a4.IsWhole) (hc : ¬cond0_0 i)
    (x0 x1 : Vec F S8192x32 .f32) (x2 : Vec F S1x32 .f32) (xo : Vec F S1x1 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  rw [View.canon_unit_zero hz]
  simp only [View.readAt_eq_ld, h1.read_unread, h2.read_unread, h3.read_unread, h4.read_unread,
    View.ld_unit_zero (S := S8192x32) hz, View.ld_unit_zero (S := S1x32) hz, View.ld_unit_zero (S := S1x1) hz]

/-- The first point (case A) sets the cell to zero, reads that back, and leaves the accumulating store applied
    to the zero cell. -/
theorem out_A (c : Dev nD) (i : grid0.Coords) (a1 : Memref sig .tc .vmem S8192x32 .f32) (h1 : a1.IsWhole)
    (a2 : Memref sig .tc .vmem S8192x32 .f32) (h2 : a2.IsWhole) (a3 : Memref sig .tc .vmem S1x32 .f32) (h3 : a3.IsWhole)
    (a4 : Memref sig .tc .vmem S1x1 .f32) (h4 : a4.IsWhole) (hc : cond0_0 i)
    (x0 x1 : Vec F S8192x32 .f32) (x2 : Vec F S1x32 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S8192x32) hz, View.ld_unit_zero (S := S1x32) hz]

/-! ## The store read at the extended reals -/

open Cert.Loss

/-- The zero cell holds the zero word's value. -/
theorem pay1_apply (y : S1x1.Idx) : k0_pay1 (F := Ideal) y = Ideal.ofBits .f32 0x00000000#32 := rfl

/-- An entry of the block of losses: the difference of the two blocks' entries where it is not negative, and where
    it is, the difference times zero minus the penalty of the entry's column, which is the negated penalty. -/
theorem loss_block_apply (x0 x1 : FVec Ideal S8192x32 .f32) (x2 : FVec Ideal S1x32 .f32) (r : Fin 8192) (cc : Fin 32) :
    (select (cmpf .olt (subf x0 x1) (broadcast S8192x32 (Scalar.ofBits .f32 0x00000000#32)))
      (mulf (broadcastTo S8192x32 (subf (broadcast S1x32 (Scalar.ofBits .f32 0x00000000#32))
          (shapeCast S1x32 x2 shapeCasts_S1x32_S1x32)) broadcasts_S1x32_S8192x32) (subf x0 x1))
      (subf x0 x1) : FVec Ideal S8192x32 .f32) (ix2 r cc)
    = lossAt (x0 (ix2 r cc)) (x1 (ix2 r cc)) (x2 (ix2 (0 : Fin 1) cc)) := by
  rw [shapeCast_self]
  show Scalar.select (Ideal.cmp .olt (x0 (ix2 r cc) - x1 (ix2 r cc)) (Ideal.ofBits .f32 0x00000000#32))
      (broadcastTo S8192x32 (subf (broadcast S1x32 (Scalar.ofBits .f32 0x00000000#32)) x2) broadcasts_S1x32_S8192x32 (ix2 r cc)
        * (x0 (ix2 r cc) - x1 (ix2 r cc))) (x0 (ix2 r cc) - x1 (ix2 r cc)) = _
  rw [broadcastTo_1b_ab_apply]
  show Scalar.select _ ((Ideal.ofBits .f32 0x00000000#32 - x2 (ix2 (0 : Fin 1) cc)) * _) _ = _
  rw [zero_sub_penalty]
  rfl

/-- The accumulating store, read at the cell: what the cell held plus the block's sum — the sum over the block's
    rows of the sums over each row's columns of the entries' losses. -/
theorem pay2_apply (x0 x1 : Vec Ideal S8192x32 .f32) (x2 : Vec Ideal S1x32 .f32) (acc : Vec Ideal S1x1 .f32) (y : S1x1.Idx) :
    k0_pay2 (F := Ideal) x0 x1 x2 acc y
      = acc y + ∑ r : Fin 8192, ∑ cc : Fin 32, lossAt (x0 (ix2 r cc)) (x1 (ix2 r cc)) (x2 (ix2 (0 : Fin 1) cc)) := by
  obtain ⟨p, q, rfl⟩ : ∃ (p q : Fin 1), y = ix2 p q := ⟨y 0, y 1, eq_ix2 y⟩
  unfold k0_pay2
  refine (addf_apply _ _ _).trans ?_
  refine congrArg₂ (· + ·) ?_ ?_
  · rw [shapeCast_self]
  · refine (Cert.Lib.ColumnLayout.shapeCast_a_a1_apply _ _ p q).trans ?_
    refine (Cert.Lib.ReduceLayout.sum_axis0_col_apply _ _ _ _ _ (ix1 p)).trans ?_
    refine Finset.sum_congr rfl fun r _ => ?_
    refine (Cert.Lib.ColumnLayout.shapeCast_a_a1_apply _ _ r (0 : Fin 1)).trans ?_
    refine (Cert.Lib.ReduceLayout.sum_axis1_apply _ _ _ _ _ r).trans ?_
    exact Finset.sum_congr rfl fun cc _ => loss_block_apply x0 x1 x2 r cc

end Cert.KernelIdeal.BlockValue

end
-- ==== Proof.KernelValue.lean ====
/-
  The kernel's result is the mean loss.

  The grid has 512 points.  At point `t` the two large windows hold rows `8192 t` to `8192 t + 8191` of the two
  arrays and the small window holds the row of penalties, so what the point adds to the output's cell is the
  sum of the losses of block `t`.  By induction on the point the cell holds, after point `n`, zero plus the block
  sums up to `n`; after the last point that is the total loss.  The cell is written back once, after the last
  point, and is the whole of its one-by-one array; the lines after the call reshape it to a scalar and divide by
  the number of rows.
-/
import proofs.«174811_j89309549953237_2_alg».proof.Proof.BlockValue
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.BlockValue Cert.Loss

variable (m : (ℓ : Loc nD τ sig) → Buf (Elt Ideal) ℓ) (ρ : Dev nD → PrngReg)

/-- The three argument arrays on core `c`, as functions of their indices. -/
abbrev arg0 (c : Dev nD) : S4194304x32.Idx → Ideal .f32 := m ((c : Thread nD τ).loc main_arg0)
abbrev arg1 (c : Dev nD) : S4194304x32.Idx → Ideal .f32 := m ((c : Thread nD τ).loc main_arg1)
abbrev arg2 (c : Dev nD) : S32.Idx → Ideal .f32 := m ((c : Thread nD τ).loc main_arg2)

/-- Where each input window's block sits at point `t`: the two large windows at block row `t`, the penalty row at
    the origin — decided once over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0)

/-- Entry `(r, k)` of the first window's block at point `t` is entry `(8192 t + r, k)` of the first array. -/
theorem iblk0_apply (c : Dev nD) (t : Fin cfg0.N) (ht : t.val < 512) (r : Fin 8192) (k : Fin 32) :
    iblk m c 0 t (ix2 r k) = arg0 m c (ix2 (blockRow ⟨t.val, ht⟩ r) k) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 8192 + 1 * r.val = t.val * 8192 + r.val; rw [(idx_facts t).1]; omega
  | ⟨1, _⟩ => show win0_0.index t 1 * 32 + 1 * k.val = k.val; rw [(idx_facts t).2.1]; omega

/-- The same for the second window and the second array. -/
theorem iblk1_apply (c : Dev nD) (t : Fin cfg0.N) (ht : t.val < 512) (r : Fin 8192) (k : Fin 32) :
    iblk m c 1 t (ix2 r k) = arg1 m c (ix2 (blockRow ⟨t.val, ht⟩ r) k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 8192 + 1 * r.val = t.val * 8192 + r.val; rw [(idx_facts t).2.2.1]; omega
  | ⟨1, _⟩ => show win0_1.index t 1 * 32 + 1 * k.val = k.val; rw [(idx_facts t).2.2.2.1]; omega

/-- The penalty window's array is the penalty vector laid out as one row. -/
theorem V_main_v0 (c : Dev nD) :
    (V m c main_v0 : S1x32.Idx → Ideal .f32) = shapeCast S1x32 (arg2 m c) shapeCasts_S32_S1x32 := by
  show StableHlo.after hostOps0 (fun b => m (c, b)) (Proc.devRef .tc main_v0) = _
  after_results
  rfl

/-- Entry `(0, k)` of the penalty window's block, at any point, is the penalty of column `k`. -/
theorem iblk2_apply (c : Dev nD) (t : Fin cfg0.N) (k : Fin 32) :
    iblk m c 2 t (ix2 (0 : Fin 1) k) = arg2 m c (ix1 k) := by
  unfold iblk
  rw [View.read_apply]
  show V m c main_v0 _ = _
  rw [V_main_v0]
  refine Eq.trans (congrArg (shapeCast S1x32 (arg2 m c) shapeCasts_S32_S1x32) (funext fun a => Fin.ext ?_))
    (shapeCast_a_1a_apply (arg2 m c) shapeCasts_S32_S1x32 (0 : Fin 1) k)
  match a with
  | ⟨0, _⟩ => show win0_2.index t 0 * 1 + 1 * 0 = 0; rw [(idx_facts t).2.2.2.2.1]
  | ⟨1, _⟩ => show win0_2.index t 1 * 32 + 1 * k.val = k.val; rw [(idx_facts t).2.2.2.2.2]; omega

/-- What point `t` adds to the cell — the sum over its blocks' entries — is the sum of the losses of block `t` of
    the arrays. -/
theorem point_sum (c : Dev nD) (t : Fin cfg0.N) (ht : t.val < 512) :
    (∑ r : Fin 8192, ∑ k : Fin 32,
        lossAt (iblk m c 0 t (ix2 r k)) (iblk m c 1 t (ix2 r k)) (iblk m c 2 t (ix2 (0 : Fin 1) k)))
      = blockSumAt (arg0 m c) (arg1 m c) (arg2 m c) t.val := by
  rw [blockSumAt_of_lt _ _ _ _ ht]
  unfold blockSum
  refine Finset.sum_congr rfl fun r _ => Finset.sum_congr rfl fun k _ => ?_
  rw [iblk0_apply m c t ht r k, iblk1_apply m c t ht r k, iblk2_apply m c t k]

/-- After point `n` the cell holds zero plus the block sums up to `n`: by induction on the point, the first point
    leaving zero plus its block sum and each later point the previous contents plus its own. -/
theorem outsAt_eq (c : Dev nD) (y : S1x1.Idx) : ∀ (n : ℕ) (h : n < cfg0.N),
    outsAt0 m c n h y
      = Ideal.ofBits .f32 0x00000000#32 + ∑ k ∈ Finset.range (n + 1), blockSumAt (arg0 m c) (arg1 m c) (arg2 m c) k := by
  have hN : cfg0.N = 512 := N_0
  refine running_total cfg0.N _ _ (fun n h => outsAt0 m c n h y) (fun h => ?_) (fun n h => ?_)
  · refine (congrFun (outsAt0_A m c ⟨0, h⟩ rfl) y).trans ?_
    rw [out_A]
    refine (pay2_apply (iblk m c 0 ⟨0, h⟩) (iblk m c 1 ⟨0, h⟩) (iblk m c 2 ⟨0, h⟩) (k0_pay1 (F := Ideal)) y).trans ?_
    rw [pay1_apply]
    exact congrArg _ (point_sum m c ⟨0, h⟩ (by dsimp only; omega))
  · have hB : ¬(⟨n + 1, h⟩ : Fin cfg0.N).val % 512 = 0 := by dsimp only; omega
    refine (congrFun (outsAt0_B m c ⟨n + 1, h⟩ hB) y).trans ?_
    rw [out_B]
    refine (pay2_apply (iblk m c 0 ⟨n + 1, h⟩) (iblk m c 1 ⟨n + 1, h⟩) (iblk m c 2 ⟨n + 1, h⟩) _ y).trans ?_
    show outsAt0 m c n _ y + _ = outsAt0 m c n _ y + _
    exact congrArg _ (point_sum m c ⟨n + 1, h⟩ (by dsimp only; omega))

/-- The one write-back, after the last point, writes the running total after all 512 points; `v` names that
    value, whatever it is. -/
theorem flushed_eq (c : Dev nD) (v : Ideal .f32)
    (hv : Ideal.ofBits .f32 0x00000000#32 + ∑ k ∈ Finset.range (511 + 1), blockSumAt (arg0 m c) (arg1 m c) (arg2 m c) k = v)
    (t : Fin cfg0.N) (hf : (cfg0.win 3).flush t = true) :
    (dats m 0 c).flushed 3 t = ((cfg0.win 3).blk t).view.read (Elt Ideal) (fun _ => v) := by
  have hN : cfg0.N = 512 := N_0
  have h511 : t.val = 511 := by have := (flush0_3 t).mp hf; have := t.isLt; omega
  have e : Finset.range (t.val + 1) = Finset.range (511 + 1) := by rw [h511]
  show (cfg0.win 3).cut (grid0.coords t) ((dats m 0 c).after 3 t) = _
  rw [after0_3]
  funext y
  rw [View.read_apply]
  refine ((outsAt_eq m c ((cfg0.win 3).xinj (grid0.coords t) y) t.val t.isLt).trans ?_).trans hv
  rw [e]

/-- The output window's block sits at the origin of its one-by-one array at every point — decided once over the
    grid. -/
theorem out_idx_facts : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- An index of the array is in point `t`'s block iff each coordinate is in the block's range on its axis. -/
theorem mem_blk (t : Fin cfg0.N) (i : S1x1.Idx) :
    i ∈ ((cfg0.win 3).blk t).view.set
      ↔ ∀ a : Fin 2, win0_3.index t a * S1x1.size a ≤ (i a).val ∧ (i a).val < win0_3.index t a * S1x1.size a + S1x1.size a := by
  show i ∈ ((View.whole main_v1).slice (win0_3.rect t)).set ↔ _
  rw [View.set_slice_whole, Rect.mem_set_unit]
  exact Iff.rfl

/-- The last point's block is the whole one-by-one array, so the array ends with its one cell at `v`. -/
theorem final (c : Dev nD) (v : Ideal .f32)
    (hv : Ideal.ofBits .f32 0x00000000#32 + ∑ k ∈ Finset.range (511 + 1), blockSumAt (arg0 m c) (arg1 m c) (arg2 m c) k = v) :
    (dats m 0 c).arrAt 3 cfg0.N = fun _ => v := by
  obtain ⟨t, ht⟩ : ∃ t : Fin cfg0.N, t.val = 511 := ⟨⟨511, by rw [show cfg0.N = 512 from N_0]; omega⟩, rfl⟩
  refine (dats m 0 c).arrAt_eq_of_cover 3 (fun _ => v) (flushed_eq m c v hv) fun i => ⟨t, (flush0_3 t).mpr (by rw [ht]), ?_⟩
  rw [mem_blk]
  obtain ⟨e0, e1⟩ := out_idx_facts t
  have h0 : (i 0).val < 1 := (i 0).isLt
  have h1 : (i 1).val < 1 := (i 1).isLt
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 1 ≤ (i 1).val ∧ (i 1).val < win0_3.index t (1 : Fin 2) * 1 + 1; omega

/-- The lines after the call: the cell reshaped to a scalar and divided by the number of rows. -/
theorem tail_eq (c : Dev nD) (v : Ideal .f32) (hfin : (dats m 0 c).arrAt 3 cfg0.N = fun _ => v) :
    Pipeline.afterTail₀ cfgs (dats m) 0 (V0 m) [hostOps1] c main_v3
      = fun _ => Ideal.div v (Ideal.ofBits .f32 0x4A800000#32) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v1) = fun _ => v :=
    (Pipeline.withArrays_arr spec0 launch0.win.arr_inj c _ _ 3).trans hfin
  rw [hw]
  funext x
  rfl

/-- THE KERNEL'S RUN, READ: every weakly fair execution ends with the result at the mean loss of the argument
    arrays and the arguments unchanged. -/
theorem run : θ_run defs (onTc (τ := τ) (main (F := Ideal))) ⟨m, fun _ => 0, ρ⟩ fun r => ∀ c : Dev nD,
      r.2.mem ((c : Thread nD τ).loc main_v3) = mean (arg0 m c) (arg1 m c) (arg2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans
        ((tail_eq m c _ (final m c _ (total_eq_range (arg0 m c) (arg1 m c) (arg2 m c)))).trans
          (mean_eq (arg0 m c) (arg1 m c) (arg2 m c)).symm),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.lean ====
/-
  The mean asymmetric L1 loss, computed blockwise by a kernel and all at once by its reference, is one value.

  For arrays `computed` and `target` of 4194304 rows by 32 columns and a vector `penalty` of 32 entries, an
  entry's loss is its difference `computed - target` where that is not negative and the difference times the
  negated penalty of its column where it is.  The reference sums every entry's loss from zero and divides by
  the number of rows.  The kernel walks 512 blocks of 8192 rows: at each it forms the block's losses (negating
  the penalty as zero minus it), sums each row, sums the row sums, and adds the block's sum to one cell that
  the first block has reset to zero; after the last block the cell is reshaped to a scalar and divided by the
  number of rows.

  Over the extended reals zero minus a value is its negation, and addition is commutative and associative
  whatever the summands are, so the running total after the last block is the zero plus the sum over all
  entries: the two programs divide the same total by the same number.  No entry needs to be finite for this,
  and the precondition is not opened.

    LossSum      the loss of one entry, the sum over the array taken block by block, the running total
    RefValue     the reference's result is the mean loss of its arguments
    BlockValue   what one grid point leaves in the cell: what it held plus the block's sum
    KernelValue  the blocks read as rows of the arrays, the induction over the points, the one write-back,
                 the lines after the call; the kernel's result is the mean loss of its arguments
  The three frames are the programs' runs with the results dropped; the idealization rewrote nothing.
-/
import proofs.«174811_j89309549953237_2_alg».proof.Defs
import proofs.«174811_j89309549953237_2_alg».proof.Proof.Gen.Kernel
import proofs.«174811_j89309549953237_2_alg».proof.Proof.Gen.Kernel.Skeleton
import proofs.«174811_j89309549953237_2_alg».proof.Proof.Gen.Kernel.Launch
import proofs.«174811_j89309549953237_2_alg».proof.Proof.Gen.Kernel.Points
import proofs.«174811_j89309549953237_2_alg».proof.Proof.Gen.Kernel.Frame
import proofs.«174811_j89309549953237_2_alg».proof.Proof.Gen.KernelIdeal
import proofs.«174811_j89309549953237_2_alg».proof.Proof.Gen.KernelIdeal.Skeleton
import proofs.«174811_j89309549953237_2_alg».proof.Proof.Gen.KernelIdeal.Launch
import proofs.«174811_j89309549953237_2_alg».proof.Proof.Gen.KernelIdeal.Points
import proofs.«174811_j89309549953237_2_alg».proof.Proof.Gen.KernelIdeal.Frame
import proofs.«174811_j89309549953237_2_alg».proof.Proof.Gen.ReferenceIdeal
import proofs.«174811_j89309549953237_2_alg».proof.Proof.Gen.ReferenceIdeal.Read
import proofs.«174811_j89309549953237_2_alg».proof.Proof.Gen.Pre_finite_inputs
import proofs.«174811_j89309549953237_2_alg».proof.Proof.RefValue
import proofs.«174811_j89309549953237_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arrays both programs end with the mean loss of those arrays: the kernel
    by its blockwise running total, the reference by its one sum. -/
theorem algebraic : Cert.algebraic_KernelIdeal_ReferenceIdeal := by
  intro m ρ m' ρ' _ hagree
  refine ⟨fun c => Cert.Loss.mean (Cert.KernelIdeal.KernelValue.arg0 m c) (Cert.KernelIdeal.KernelValue.arg1 m c)
      (Cert.KernelIdeal.KernelValue.arg2 m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  show _ = Cert.Loss.mean (Cert.KernelIdeal.KernelValue.arg0 m c) (Cert.KernelIdeal.KernelValue.arg1 m c)
      (Cert.KernelIdeal.KernelValue.arg2 m c)
  rw [Cert.ReferenceIdeal.Read.val_main_v9_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
